-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S65536x64 .f32) (main_arg1 : IVec S2x1048576 32) (main_arg2 : FVec F S64x64 .f32) (main_arg3 : FVec F S64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S1x1048576 : Shape := ⟨2, ![1, 1048576]⟩
abbrev S1048576 : Shape := ⟨1, ![1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S8192x64 : Shape := ⟨2, ![8192, 64]⟩
abbrev S1114112x64 : Shape := ⟨2, ![1114112, 64]⟩
abbrev S1x64 : Shape := ⟨2, ![1, 64]⟩

abbrev nBuf : Space → Nat
  | .hbm => 66
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S2x1048576, .i32⟩
  | .hbm, ⟨2, _⟩ => ⟨S64x64, .f32⟩
  | .hbm, ⟨3, _⟩ => ⟨S64, .f32⟩
  | .hbm, ⟨4, _⟩ => ⟨S1x1048576, .i32⟩
  | .hbm, ⟨5, _⟩ => ⟨S1048576, .i32⟩
  | .hbm, ⟨6, _⟩ => ⟨S1x1048576, .i32⟩
  | .hbm, ⟨7, _⟩ => ⟨S1048576, .i32⟩
  | .hbm, ⟨8, _⟩ => ⟨S65536, .i32⟩
  | .hbm, ⟨9, _⟩ => ⟨S1114112, .i32⟩
  | .hbm, ⟨10, _⟩ => ⟨S1114112, .i32⟩
  | .hbm, ⟨11, _⟩ => ⟨S_, .i32⟩
  | .hbm, ⟨12, _⟩ => ⟨S1114112, .i32⟩
  | .hbm, ⟨13, _⟩ => ⟨S_, .i32⟩
  | .hbm, ⟨14, _⟩ => ⟨S65536, .i32⟩
  | .hbm, ⟨15, _⟩ => ⟨S1114112x1, .i32⟩
  | .hbm, ⟨16, _⟩ => ⟨S65536, .i32⟩
  | .hbm, ⟨17, _⟩ => ⟨S65536, .f32⟩
  | .hbm, ⟨18, _⟩ => ⟨S_, .f32⟩
  | .hbm, ⟨19, _⟩ => ⟨S65536, .f32⟩
  | .hbm, ⟨20, _⟩ => ⟨S65536, .i1⟩
  | .hbm, ⟨21, _⟩ => ⟨S65536, .f32⟩
  | .hbm, ⟨22, _⟩ => ⟨S_, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S_, .i32⟩
  | .hbm, ⟨27, _⟩ => ⟨S1114112, .i32⟩
  | .hbm, ⟨28, _⟩ => ⟨S1114112, .i1⟩
  | .hbm, ⟨29, _⟩ => ⟨S_, .i32⟩
  | .hbm, ⟨30, _⟩ => ⟨S1114112, .i32⟩
  | .hbm, ⟨31, _⟩ => ⟨S1114112, .i32⟩
  | .hbm, ⟨32, _⟩ => ⟨S1114112, .i32⟩
  | .hbm, ⟨33, _⟩ => ⟨S1114112x1, .i32⟩
  | .hbm, ⟨34, _⟩ => ⟨S1114112, .f32⟩
  | .hbm, ⟨35, _⟩ => ⟨S_, .i32⟩
  | .hbm, ⟨36, _⟩ => ⟨S1114112, .i32⟩
  | .hbm, ⟨37, _⟩ => ⟨S1114112, .i1⟩
  | .hbm, ⟨38, _⟩ => ⟨S_, .i32⟩
  | .hbm, ⟨39, _⟩ => ⟨S1114112, .i32⟩
  | .hbm, ⟨40, _⟩ => ⟨S1114112, .i32⟩
  | .hbm, ⟨41, _⟩ => ⟨S1114112, .i32⟩
  | .hbm, ⟨42, _⟩ => ⟨S1114112x1, .i32⟩
  | .hbm, ⟨43, _⟩ => ⟨S1114112, .f32⟩
  | .hbm, ⟨44, _⟩ => ⟨S1114112, .f32⟩
  | .hbm, ⟨45, _⟩ => ⟨S65536x64, .bf16⟩
  | .hbm, ⟨46, _⟩ => ⟨S_, .i32⟩
  | .hbm, ⟨47, _⟩ => ⟨S1114112, .i32⟩
  | .hbm, ⟨48, _⟩ => ⟨S1114112, .i1⟩
  | .hbm, ⟨49, _⟩ => ⟨S_, .i32⟩
  | .hbm, ⟨50, _⟩ => ⟨S1114112, .i32⟩
  | .hbm, ⟨51, _⟩ => ⟨S1114112, .i32⟩
  | .hbm, ⟨52, _⟩ => ⟨S1114112, .i32⟩
  | .hbm, ⟨53, _⟩ => ⟨S1114112x1, .i32⟩
  | .hbm, ⟨54, _⟩ => ⟨S1114112x64, .bf16⟩
  | .hbm, ⟨55, _⟩ => ⟨S1114112x1, .f32⟩
  | .hbm, ⟨56, _⟩ => ⟨S1114112x64, .f32⟩
  | .hbm, ⟨57, _⟩ => ⟨S1114112x64, .f32⟩
  | .hbm, ⟨58, _⟩ => ⟨S1114112x64, .f32⟩
  | .hbm, ⟨59, _⟩ => ⟨S_, .f32⟩
  | .hbm, ⟨60, _⟩ => ⟨S65536x64, .f32⟩
  | .hbm, ⟨61, _⟩ => ⟨S1114112x1, .i32⟩
  | .hbm, ⟨62, _⟩ => ⟨S65536x64, .f32⟩
  | .hbm, ⟨63, _⟩ => ⟨S1x64, .f32⟩
  | .hbm, ⟨64, _⟩ => ⟨S65536x64, .f32⟩
  | .hbm, ⟨65, _⟩ => ⟨S65536x64, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S8192x64, .bf16⟩
  | .local _ .vmem, ⟨4, _⟩ => ⟨S8192x64, .bf16⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  inb_S8192x64_S8192x64_0_0 : ∀ a, (![0, 0] : Fin 2 → Nat) a + S8192x64.size a ≤ S8192x64.size a
  h_S8192x64 : 0 < S8192x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  packedbf16_S8192x64_S8192x64_0_0 : (Rect.unit (s := S8192x64) ![0, 0] S8192x64.size inb_S8192x64_S8192x64_0_0).PackedRows (EltTy.packing .bf16)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S8192x64_S64x64_S8192x64_1_0_0_1_n_n_wf : DotDims.WF S8192x64 S64x64 S8192x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S65536x64.size a
  hwx0_0 : ∀ i : grid0.Coords, EltTy.bits .f32 = 32 ∨ (Rect.block (s := S65536x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S65536x64.size a
  hwx0_2 : ∀ i : grid0.Coords, EltTy.bits .bf16 = 32 ∨ (Rect.block (s := S65536x64) S8192x64.size (cc0_transform_2 i) (hinb0_2 i)).WholeWords (EltTy.packing .bf16)

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S8192x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S2x1048576 : Shape := ⟨2, ![2, 1048576]⟩
abbrev S64x64 : Shape := ⟨2, ![64, 64]⟩
abbrev S64 : Shape := ⟨1, ![64]⟩
abbrev S1x1048576 : Shape := ⟨2, ![1, 1048576]⟩
abbrev S1048576 : Shape := ⟨1, ![1048576]⟩
abbrev S65536 : Shape := ⟨1, ![65536]⟩
abbrev S1114112 : Shape := ⟨1, ![1114112]⟩
abbrev S_ : Shape := ⟨0, ![]⟩
abbrev S1114112x1 : Shape := ⟨2, ![1114112, 1]⟩
abbrev S1114112x64 : Shape := ⟨2, ![1114112, 64]⟩
abbrev S1x64 : Shape := ⟨2, ![1, 64]⟩

abbrev nBuf : Space → Nat
  | .hbm => 64
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S2x1048576, .i32⟩
  | .hbm, ⟨2, _⟩ => ⟨S64x64, .f32⟩
  | .hbm, ⟨3, _⟩ => ⟨S64, .f32⟩
  | .hbm, ⟨4, _⟩ => ⟨S1x1048576, .i32⟩
  | .hbm, ⟨5, _⟩ => ⟨S1048576, .i32⟩
  | .hbm, ⟨6, _⟩ => ⟨S1x1048576, .i32⟩
  | .hbm, ⟨7, _⟩ => ⟨S1048576, .i32⟩
  | .hbm, ⟨8, _⟩ => ⟨S65536, .i32⟩
  | .hbm, ⟨9, _⟩ => ⟨S1114112, .i32⟩
  | .hbm, ⟨10, _⟩ => ⟨S1114112, .i32⟩
  | .hbm, ⟨11, _⟩ => ⟨S_, .f32⟩
  | .hbm, ⟨12, _⟩ => ⟨S1114112, .f32⟩
  | .hbm, ⟨13, _⟩ => ⟨S_, .f32⟩
  | .hbm, ⟨14, _⟩ => ⟨S65536, .f32⟩
  | .hbm, ⟨15, _⟩ => ⟨S1114112x1, .i32⟩
  | .hbm, ⟨16, _⟩ => ⟨S65536, .f32⟩
  | .hbm, ⟨17, _⟩ => ⟨S_, .f32⟩
  | .hbm, ⟨18, _⟩ => ⟨S65536, .f32⟩
  | .hbm, ⟨19, _⟩ => ⟨S65536, .i1⟩
  | .hbm, ⟨20, _⟩ => ⟨S65536, .f32⟩
  | .hbm, ⟨21, _⟩ => ⟨S_, .f32⟩
  | .hbm, ⟨22, _⟩ => ⟨S_, .f32⟩
  | .hbm, ⟨23, _⟩ => ⟨S65536, .f32⟩
  | .hbm, ⟨24, _⟩ => ⟨S65536, .f32⟩
  | .hbm, ⟨25, _⟩ => ⟨S_, .i32⟩
  | .hbm, ⟨26, _⟩ => ⟨S1114112, .i32⟩
  | .hbm, ⟨27, _⟩ => ⟨S1114112, .i1⟩
  | .hbm, ⟨28, _⟩ => ⟨S_, .i32⟩
  | .hbm, ⟨29, _⟩ => ⟨S1114112, .i32⟩
  | .hbm, ⟨30, _⟩ => ⟨S1114112, .i32⟩
  | .hbm, ⟨31, _⟩ => ⟨S1114112, .i32⟩
  | .hbm, ⟨32, _⟩ => ⟨S1114112x1, .i32⟩
  | .hbm, ⟨33, _⟩ => ⟨S1114112, .f32⟩
  | .hbm, ⟨34, _⟩ => ⟨S_, .i32⟩
  | .hbm, ⟨35, _⟩ => ⟨S1114112, .i32⟩
  | .hbm, ⟨36, _⟩ => ⟨S1114112, .i1⟩
  | .hbm, ⟨37, _⟩ => ⟨S_, .i32⟩
  | .hbm, ⟨38, _⟩ => ⟨S1114112, .i32⟩
  | .hbm, ⟨39, _⟩ => ⟨S1114112, .i32⟩
  | .hbm, ⟨40, _⟩ => ⟨S1114112, .i32⟩
  | .hbm, ⟨41, _⟩ => ⟨S1114112x1, .i32⟩
  | .hbm, ⟨42, _⟩ => ⟨S1114112, .f32⟩
  | .hbm, ⟨43, _⟩ => ⟨S1114112, .f32⟩
  | .hbm, ⟨44, _⟩ => ⟨S65536x64, .f32⟩
  | .hbm, ⟨45, _⟩ => ⟨S_, .i32⟩
  | .hbm, ⟨46, _⟩ => ⟨S1114112, .i32⟩
  | .hbm, ⟨47, _⟩ => ⟨S1114112, .i1⟩
  | .hbm, ⟨48, _⟩ => ⟨S_, .i32⟩
  | .hbm, ⟨49, _⟩ => ⟨S1114112, .i32⟩
  | .hbm, ⟨50, _⟩ => ⟨S1114112, .i32⟩
  | .hbm, ⟨51, _⟩ => ⟨S1114112, .i32⟩
  | .hbm, ⟨52, _⟩ => ⟨S1114112x1, .i32⟩
  | .hbm, ⟨53, _⟩ => ⟨S1114112x64, .f32⟩
  | .hbm, ⟨54, _⟩ => ⟨S1114112x1, .f32⟩
  | .hbm, ⟨55, _⟩ => ⟨S1114112x64, .f32⟩
  | .hbm, ⟨56, _⟩ => ⟨S1114112x64, .f32⟩
  | .hbm, ⟨57, _⟩ => ⟨S_, .f32⟩
  | .hbm, ⟨58, _⟩ => ⟨S65536x64, .f32⟩
  | .hbm, ⟨59, _⟩ => ⟨S1114112x1, .i32⟩
  | .hbm, ⟨60, _⟩ => ⟨S65536x64, .f32⟩
  | .hbm, ⟨61, _⟩ => ⟨S1x64, .f32⟩
  | .hbm, ⟨62, _⟩ => ⟨S65536x64, .f32⟩
  | .hbm, ⟨63, _⟩ => ⟨S65536x64, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  concatenates_S1048576_S65536_S1114112_d0 : Shape.Concatenates [S1048576, S65536] S1114112 0
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  bcast_S1114112x1_S1114112x64_0_1 : S1114112x1.BroadcastsInDim S1114112x64 (![0, 1] : Fin 2 → Fin S1114112x64.rank)
  bcast_S_S65536x64 : S_.BroadcastsInDim S65536x64 (![] : Fin 0 → Fin S65536x64.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S65536x64_S64x64_S65536x64_1_0_0_1_n_n_wf : DotDims.WF S65536x64 S64x64 S65536x64 [1] [0] [0] [1] [] []
  gather_S65536x64_S1114112x1_S1114112x64_1_0_n_n_0_1_164_wf : GatherDims.WF S65536x64 S1114112x1 S1114112x64 [1] [0] [] [0] [] 1 ![1, 64]
  scatter_S65536x64_S1114112x1_S1114112x64_1_0_0_1_wf : ScatterDims.WF S65536x64 S1114112x1 S1114112x64 [1] [0] [0] 1

variable [Facts₀]

def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def gather_S65536x64_S1114112x1_S1114112x64_1_0_n_n_0_1_164 : GatherDims S65536x64 S1114112x1 S1114112x64 where
  offsetDims := [1]
  collapsedSliceDims := [0]
  operandBatchingDims := []
  startIndicesBatchingDims := []
  startIndexMap := [0]
  indexVectorDim := 1
  sliceSizes := ![1, 64]
  wf := gather_S65536x64_S1114112x1_S1114112x64_1_0_n_n_0_1_164_wf
def scatter_S65536x64_S1114112x1_S1114112x64_1_0_0_1 : ScatterDims S65536x64 S1114112x1 S1114112x64 where
  updateWindowDims := [1]
  insertedWindowDims := [0]
  scatterDimsToOperandDims := [0]
  indexVectorDim := 1
  wf := scatter_S65536x64_S1114112x1_S1114112x64_1_0_0_1_wf

class Facts : Prop extends Facts₀ where

variable [Facts]
-- ==== Proof.Spec.lean ====
/-
  The layer both programs compute, as ONE function of its parts.

  The graph has the given edges (row 0 of the edge table the sources, row 1 the targets) and one self-loop per node,
  so each endpoint list is the table's row followed by 0, 1, …, N-1. The degree of a node counts the entries of the
  target list equal to it. With d = deg^(-1/2) where deg > 0 and 0 elsewhere, edge e carries the weight
  d(src e) · d(dst e); a negative endpoint is read N places further on (python's indexing), and the gathers clamp.
  The result's row i is the bias plus the sum, over the edges e with target i, of weight(e) · H(src e, ·),
  H being the N×64 matrix of transformed features.

  `layer H deg ei b` is that result as a function of H and the degree vector, so that two programs that build H and
  the degrees differently and then do the same are compared on H and the degrees alone.
-/
import proofs.«110312_j3994319585791_2_alg».proof.Proof.Gen.ReferenceIdeal
import Idealize.ShloMosaic.PureOps.Ideal

noncomputable section

namespace Cert.Spec

open Idealize.ShloMosaic Cert.ReferenceIdeal
open Cert.ReferenceIdeal.Facts₀

/-- A list of the E edge entries followed by a list of the N node entries, as one list of E + N entries. -/
def join2 {α : Type} (a : S1048576.Idx → α) (b : S65536.Idx → α) : S1114112.Idx → α :=
  concatenate S1114112 0 [⟨S1048576, a⟩, ⟨S65536, b⟩] concatenates_S1048576_S65536_S1114112_d0

/-- A two-piece concatenation of those extents is `join2`, whatever witnesses the extents' sum. -/
theorem join2_fold {α : Type} (h : Shape.Concatenates [S1048576, S65536] S1114112 0) (a : S1048576.Idx → α)
    (b : S65536.Idx → α) : concatenate S1114112 0 [⟨S1048576, a⟩, ⟨S65536, b⟩] h = join2 a b := rfl

/-- The source endpoints: row 0 of the edge table, then every node once (the self-loops). -/
def src (ei : IVec S2x1048576 32) : IVec S1114112 32 :=
  join2 (shapeCast _ (extractStridedSlice S1x1048576 ![0, 0] ei slices_S2x1048576_S1x1048576_0_0) shapeCasts_S1x1048576_S1048576)
    (iotaInDim S65536 32 0)

/-- The target endpoints: row 1 of the edge table, then every node once. -/
def dst (ei : IVec S2x1048576 32) : IVec S1114112 32 :=
  join2 (shapeCast _ (extractStridedSlice S1x1048576 ![1, 0] ei slices_S2x1048576_S1x1048576_1_0) shapeCasts_S1x1048576_S1048576)
    (iotaInDim S65536 32 0)

/-- An endpoint list as a column of gather indices: a negative entry is read N = 65536 places further on. -/
def column (v : IVec S1114112 32) : IVec S1114112x1 32 :=
  broadcastInDim S1114112x1 ![0] bcast_S1114112_S1114112x1_0
    (select (cmpi .slt v (broadcastInDim S1114112 ![] bcast_S_S1114112 (constantI S_ 32 0#32)))
      (addi v (broadcastInDim S1114112 ![] bcast_S_S1114112 (constantI S_ 32 65536#32))) v)

/-- deg^(-1/2) where the degree is positive, 0 elsewhere. -/
def invSqrt (deg : FVec Ideal S65536 .f32) : FVec Ideal S65536 .f32 :=
  select (cmpf (F := Ideal) .ogt deg (broadcastInDim S65536 ![] bcast_S_S65536 (constant (F := Ideal) S_ .f32 0x00000000#32)))
    (Host.rsqrt (F := Ideal) deg)
    (broadcastInDim S65536 ![] bcast_S_S65536 (id (constant (F := Ideal) S_ .f32 0x00000000#32)))

/-- The weight of each edge: the product of the two endpoints' inverse square-root degrees. -/
def weight (deg : FVec Ideal S65536 .f32) (ei : IVec S2x1048576 32) : FVec Ideal S1114112 .f32 :=
  mulf (F := Ideal) (Host.gather gather_S65536_S1114112x1_S1114112_n_0_n_n_0_1_1 (invSqrt deg) (column (src ei)))
    (Host.gather gather_S65536_S1114112x1_S1114112_n_0_n_n_0_1_1 (invSqrt deg) (column (dst ei)))

/-- The layer: every edge's source row of `H`, scaled by the edge's weight, summed into the edge's target row;
    then the bias added to every row. -/
def layer (H : FVec Ideal S65536x64 .f32) (deg : FVec Ideal S65536 .f32) (ei : IVec S2x1048576 32)
    (b : FVec Ideal S64 .f32) : FVec Ideal S65536x64 .f32 :=
  addf (F := Ideal)
    (Host.scatterAdd (F := Ideal) scatter_S65536x64_S1114112x1_S1114112x64_1_0_0_1
      (broadcastInDim S65536x64 ![] bcast_S_S65536x64 (constant (F := Ideal) S_ .f32 0x00000000#32))
      (broadcastInDim S1114112x1 ![0] bcast_S1114112_S1114112x1_0 (dst ei))
      (mulf (F := Ideal) (Host.gather gather_S65536x64_S1114112x1_S1114112x64_1_0_n_n_0_1_164 H (column (src ei)))
        (broadcastInDim S1114112x64 ![0, 1] bcast_S1114112x1_S1114112x64_0_1
          (broadcastInDim S1114112x1 ![0] bcast_S1114112_S1114112x1_0 (weight deg ei)))))
    (broadcastInDim S65536x64 ![0, 1] bcast_S1x64_S65536x64_0_1 (broadcastInDim S1x64 ![1] bcast_S64_S1x64_1 b))

/-- The degrees as an exact float count: ones summed into zeros at the targets. -/
def degree (ei : IVec S2x1048576 32) : FVec Ideal S65536 .f32 :=
  Host.scatterAdd (F := Ideal) scatter_S65536_S1114112x1_S1114112_n_0_0_1
    (broadcastInDim S65536 ![] bcast_S_S65536 (constant (F := Ideal) S_ .f32 0x00000000#32))
    (broadcastInDim S1114112x1 ![0] bcast_S1114112_S1114112x1_0 (dst ei))
    (broadcastInDim S1114112 ![] bcast_S_S1114112 (constant (F := Ideal) S_ .f32 0x3F800000#32))

/-- The transformed features: the whole product X·W. -/
def features (x : FVec Ideal S65536x64 .f32) (W : FVec Ideal S64x64 .f32) : FVec Ideal S65536x64 .f32 :=
  Host.dotGeneral (F := Ideal) dot_S65536x64_S64x64_S65536x64_1_0_0_1_n_n none x W

/-- What both programs compute of the four arguments. -/
def result (x : FVec Ideal S65536x64 .f32) (ei : IVec S2x1048576 32) (W : FVec Ideal S64x64 .f32)
    (b : FVec Ideal S64 .f32) : FVec Ideal S65536x64 .f32 :=
  layer (features x W) (degree ei) ei b

end Cert.Spec

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibRowsOfProduct.lean ====
/-
  Rows of a matrix product.

  For an M×k matrix X and a k×n matrix W, row i of X·W depends on row i of X alone:
  (X·W)(i, q) = ∑_c X(i, c) · W(c, q). So if a b×k matrix A holds the rows r(0), …, r(b-1) of X — A(p, c) = X(r p, c) —
  and B agrees with W, then the product A·B accumulated into the zero matrix is, entry by entry, the rows r(p) of the
  host's product X·W: (A·B)(p, q) = (X·W)(r p, q). On the extended reals this needs no finiteness: both sides are the
  same sum of the same products, term by term.

  Used for a product computed block of rows by block of rows against the product computed at once.
-/
import proofs.«110312_j3994319585791_2_alg».proof.Proof.LibPlainMatmul
import proofs.«110312_j3994319585791_2_alg».proof.Proof.LibPlainDot

noncomputable section

open scoped BigOperators

namespace Idealize.ShloMosaic.ValueIdx

open Idealize.ShloMosaic

/-- If `A` holds the rows `r p` of `X` and `B` agrees with `W`, the plain product `A·B` into the zero matrix is,
    at `(p, q)`, the host's plain product `X·W` at `(r p, q)` — whatever the formats the operands are written in. -/
theorem matmul_rows_eq_dotGeneral {M b k n : Nat} {φ₁ φ₂ ψ₁ ψ₂ : FTy} (prec prec' : Option ContractPrecision)
    (X : FVec Ideal ⟨2, ![M, k]⟩ ψ₁) (W : FVec Ideal ⟨2, ![k, n]⟩ ψ₂)
    (A : FVec Ideal ⟨2, ![b, k]⟩ φ₁) (B : FVec Ideal ⟨2, ![k, n]⟩ φ₂) (r : Fin b → Fin M)
    (hA : ∀ (p : Fin b) (c : Fin k), (A (ix2 p c) : EReal) = X (ix2 (r p) c))
    (hB : ∀ (c : Fin k) (q : Fin n), (B (ix2 c q) : EReal) = W (ix2 c q))
    (p : Fin b) (q : Fin n) :
    matmul (DotDims.plain b k n) prec A B (constant ⟨2, ![b, n]⟩ .f32 0x00000000#32) (ix2 p q)
      = Host.dotGeneral (DotDims.plain M k n) prec' X W (ix2 (r p) q) := by
  rw [matmul_plain_zero_apply, hostDotGeneral_plain_apply]
  exact Finset.sum_congr rfl fun c _ => by rw [hA, hB]

end Idealize.ShloMosaic.ValueIdx

end
-- ==== Proof.KernelBlocks.lean ====
/-
  The transformed features as the kernel leaves them.

  The kernel's grid has eight points; point t stages rows 8192·t … 8192·t + 8191 of X (all 64 columns), the whole of
  W, and writes back the same rows of the output. Its body multiplies the staged rows by W into a zero accumulator;
  the changes of float format around the product are the identity on exact values. Row i of X·W depends on row i of X
  alone, so what point t writes back is rows 8192·t … of the whole product X·W; the eight blocks tile the 65536 rows,
  hence after the run the output array IS the product X·W, entry by entry.
-/
import proofs.«110312_j3994319585791_2_alg».proof.Proof.Gen.KernelIdeal.Frame
import proofs.«110312_j3994319585791_2_alg».proof.Proof.Spec
import proofs.«110312_j3994319585791_2_alg».proof.Proof.LibRowsOfProduct
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem offsets_zero : (![0, 0] : Fin 2 → Nat) = fun _ => 0 := funext fun a => by fin_cases a <;> rfl

/-- The whole product X·W of the arrays as the region finds them. -/
abbrev product (c : Dev nD) : S65536x64.Idx → EReal :=
  Cert.Spec.features (V m c main_arg0) (V m c main_arg2)

/-- The printed index maps over the eight points: X's and the output's block index is (t, 0), W's is (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block is row 8192·t + p of the array. -/
def rowOf (t : Fin cfg0.N) (p : Fin 8192) : Fin 65536 := ⟨t.val * 8192 + p.val, by have ht : t.val < 8 := t.isLt; have := p.isLt; show _ < 65536; omega⟩

/-- The body's stored value at (p, q), for blocks that hold the rows `r p` of X and the whole of W: the product
    X·W at (r p, q). The three format changes are the identity on exact values. -/
theorem payload_apply (X : FVec Ideal S65536x64 .f32) (W : FVec Ideal S64x64 .f32)
    (x0 : Vec Ideal S8192x64 .f32) (x1 : Vec Ideal S64x64 .f32) (r : Fin 8192 → Fin 65536)
    (h0 : ∀ (p : Fin 8192) (k : Fin 64), (x0 (ix2 p k) : EReal) = X (ix2 (r p) k))
    (h1 : ∀ (k : Fin 64) (q : Fin 64), (x1 (ix2 k q) : EReal) = W (ix2 k q))
    (p : Fin 8192) (q : Fin 64) :
    (k0_pay1 (F := Ideal) x0 x1 (ix2 p q) : EReal) = Cert.Spec.features X W (ix2 (r p) q) :=
  matmul_rows_eq_dotGeneral (M := 65536) (b := 8192) (k := 64) (n := 64) (φ₁ := .bf16) (φ₂ := .bf16) none none X W x0 x1 r h0 h1 p q

/-- What point t writes back is block t of the whole product. -/
theorem flushed_eq (c : Dev nD) (t : Fin cfg0.N) :
    (dats m 0 c).flushed 2 t = ((cfg0.win 2).blk t).view.read (Elt Ideal) (product m c) := by
  show (cfg0.win 2).cut (grid0.coords t) ((dats m 0 c).after 2 t) = _
  rw [after0_2]
  unfold out0_2
  rw [View.canon_unit_zero offsets_zero]
  simp only [View.ld_unit_zero (S := S8192x64) offsets_zero, View.ld_unit_zero (S := S64x64) offsets_zero]
  obtain ⟨e00, e01, e10, e11, e20, e21⟩ := index_maps t
  funext j
  obtain ⟨p, q, rfl⟩ : ∃ (p : Fin 8192) (q : Fin 64), j = ix2 p q := ⟨j 0, j 1, eq_ix2 j⟩
  show (k0_pay1 (F := Ideal) (iblk m c 0 t) (iblk m c 1 t) (ix2 p q) : EReal)
    = Cert.Spec.features (V m c main_arg0) (V m c main_arg2) (((cfg0.win 2).blk t).view.emb (ix2 p q))
  have hemb : ((cfg0.win 2).blk t).view.emb (ix2 p q) = ix2 (rowOf t p) q := by
    funext a; apply Fin.ext
    match a with
    | ⟨0, _⟩ => show win0_2.index t (0 : Fin 2) * 8192 + 1 * p.val = t.val * 8192 + p.val; omega
    | ⟨1, _⟩ => show win0_2.index t (1 : Fin 2) * 64 + 1 * q.val = q.val; omega
  rw [hemb]
  refine payload_apply (V m c main_arg0) (V m c main_arg2) (iblk m c 0 t) (iblk m c 1 t) (rowOf t) ?_ ?_ p q
  · intro p' k
    show V m c main_arg0 (((cfg0.win 0).blk t).view.emb (ix2 p' k)) = V m c main_arg0 (ix2 (rowOf t p') k)
    congr 1
    funext a; apply Fin.ext
    match a with
    | ⟨0, _⟩ => show win0_0.index t (0 : Fin 2) * 8192 + 1 * p'.val = t.val * 8192 + p'.val; omega
    | ⟨1, _⟩ => show win0_0.index t (1 : Fin 2) * 64 + 1 * k.val = k.val; omega
  · intro k q'
    show V m c main_arg2 (((cfg0.win 1).blk t).view.emb (ix2 k q')) = V m c main_arg2 (ix2 k q')
    congr 1
    funext a; apply Fin.ext
    match a with
    | ⟨0, _⟩ => show win0_1.index t (0 : Fin 2) * 64 + 1 * k.val = k.val; omega
    | ⟨1, _⟩ => show win0_1.index t (1 : Fin 2) * 64 + 1 * q'.val = q'.val; omega

/-- An index of the output array is in point t's block iff each coordinate is in the block's range on its axis. -/
theorem mem_block (t : Fin cfg0.N) (i : S65536x64.Idx) :
    i ∈ ((cfg0.win 2).blk t).view.set ↔ ∀ a : Fin 2, win0_2.index t a * S8192x64.size a ≤ (i a).val ∧ (i a).val < win0_2.index t a * S8192x64.size a + S8192x64.size a := by
  show i ∈ ((View.whole main_v31).slice (win0_2.rect t)).set ↔ _
  rw [View.set_slice_whole, Rect.mem_set_unit]
  exact Iff.rfl

/-- The eight blocks tile the rows: row r is in the block of point r / 8192. -/
theorem cover (i : S65536x64.Idx) :
    ∃ t : Fin cfg0.N, (cfg0.win 2).flush t = true ∧ i ∈ ((cfg0.win 2).blk t).view.set := by
  have hi0 : (i 0).val < 65536 := (i 0).isLt
  have hi1 : (i 1).val < 64 := (i 1).isLt
  let t : Fin cfg0.N := ⟨(i 0).val / 8192, by show _ < 8; omega⟩
  obtain ⟨e00, e01, e10, e11, e20, e21⟩ := index_maps t
  have ht : t.val = (i 0).val / 8192 := rfl
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 64 ≤ (i 1).val ∧ (i 1).val < win0_2.index t (1 : Fin 2) * 64 + 64; omega

/-- After the run the output array is the whole product X·W of the arguments. -/
theorem features_eq (c : Dev nD) :
    (dats m 0 c).arrAt 2 cfg0.N
      = Cert.Spec.features (m ((c : Thread nD τ).loc main_arg0)) (m ((c : Thread nD τ).loc main_arg2)) := by
  rw [← V_main_arg0 m c, ← V_main_arg2 m c]
  exact (dats m 0 c).arrAt_eq_of_cover 2 (product m c) (fun t _ => flushed_eq m c t) (cover)

end Cert.KernelIdeal.Blocks

end
-- ==== Proof.LibScatterCount.lean ====
/-
  Counting with an accumulating scatter.

  A scatter whose body adds the update to the element it lands on, read at one element `i`, is that element plus
  the sum of the updates whose result index is `i` (updates landing outside the operand are dropped): the left
  fold over the updates in row-major order adds each update exactly once, and a sum in a commutative monoid does
  not depend on the order. With every update the word `1` and the operand the word `0`, element `i` therefore
  holds the NUMBER of updates landing on `i` as a 32-bit word; that number is at most the number of updates, so
  below `2^31` it does not wrap and its signed reading is the count itself. The exact float scatter-add of ones
  into zeros is the same count as an extended real.
-/
import Idealize.ShloMosaic.PureOps.Ideal
import Idealize.ShloMosaic.PureOps.ShapeOps
import Idealize.ShloMosaic.Lib.IdealHost
import Mathlib.Data.BitVec

noncomputable section

namespace Cert.LibScatterCount

open Idealize.ShloMosaic

variable {s si u : Shape} {w : Nat}

/-- The scatter's fold over ANY list of update positions: element `i` ends at its start value plus the updates of
    the listed positions that land on `i`, in the list's order. -/
theorem foldl_add {α : Type} [AddCommMonoid α] (d : ScatterDims s si u) (idx : IVec si w) (upd : u.Idx → α)
    (l : List (Fin u.numel)) (x : s.Idx → α) (i : s.Idx) :
    (l.foldl (fun r n =>
        match d.resultIdx? (u.rowMajor.symm n) idx with
        | some k => fun i' => if i' = k then r k + upd (u.rowMajor.symm n) else r i'
        | none => r) x) i
      = x i + ((l.filter fun n => d.resultIdx? (u.rowMajor.symm n) idx = some i).map
          fun n => upd (u.rowMajor.symm n)).sum := by
  induction l generalizing x with
  | nil => simp
  | cons n l ih =>
    rw [List.foldl_cons, ih]
    cases h : d.resultIdx? (u.rowMajor.symm n) idx with
    | none => simp [List.filter_cons, h]
    | some k =>
      by_cases hk : i = k
      · subst hk
        simp [List.filter_cons, h, add_assoc]
      · have hne : ¬ (some k = some i) := fun e => hk (Option.some.inj e).symm
        simp [List.filter_cons, h, hk, hne]

/-- An accumulating scatter read at an element: the operand there plus the sum of the updates landing there. -/
theorem scatter_add_apply {α : Type} [AddCommMonoid α] (d : ScatterDims s si u) (x : s.Idx → α) (idx : IVec si w)
    (upd : u.Idx → α) (i : s.Idx) :
    Host.scatter d (fun a b => a + b) x idx upd i
      = x i + ∑ j ∈ Finset.univ.filter (fun j => d.resultIdx? j idx = some i), upd j := by
  unfold Host.scatter
  refine (foldl_add d idx upd (List.finRange u.numel) x i).trans ?_
  congr 1
  rw [← List.sum_toFinset _ ((List.nodup_finRange _).filter _), List.toFinset_filter, List.toFinset_finRange]
  refine Finset.sum_equiv u.rowMajor.symm (fun n => ?_) (fun n _ => rfl)
  simp

/-- Ones scattered additively into zeros, as 32-bit words: element `i` is the count of updates landing on it. -/
theorem scatter_ones_word (d : ScatterDims s si u) (idx : IVec si w) (i : s.Idx) :
    Host.scatter d IntOp.addi (fun _ => (0#32 : BitVec 32)) idx (fun _ => (1#32 : BitVec 32)) i
      = BitVec.ofNat 32 (Finset.univ.filter (fun j => d.resultIdx? j idx = some i)).card := by
  have h := scatter_add_apply (α := BitVec 32) d (fun _ => 0#32) idx (fun _ => 1#32) i
  have e : (IntOp.addi : BitVec 32 → BitVec 32 → BitVec 32) = fun a b => a + b := rfl
  have h1 : (1#32 : BitVec 32) = 1 := rfl
  have h0 : (0#32 : BitVec 32) = 0 := rfl
  rw [e, h, Finset.sum_const, nsmul_eq_mul, h1, h0, mul_one, zero_add, BitVec.natCast_eq_ofNat]

/-- A count below `2^31` read back signed from its 32-bit word is the count. -/
theorem toInt_ofNat_of_lt (n : Nat) (h : n < 2 ^ 31) : (BitVec.ofNat 32 n).toInt = (n : Int) := by
  have hm : n % 2 ^ 32 = n := Nat.mod_eq_of_lt (by omega)
  have h2 : 2 * n < 2 ^ 32 := by omega
  rw [BitVec.toInt_eq_toNat_cond, BitVec.toNat_ofNat, hm, if_pos h2]

/-- The count of updates landing on one element is at most the number of updates. -/
theorem card_landing_le (d : ScatterDims s si u) (idx : IVec si w) (i : s.Idx) :
    (Finset.univ.filter (fun j => d.resultIdx? j idx = some i)).card ≤ u.numel := by
  calc _ ≤ (Finset.univ : Finset u.Idx).card := Finset.card_filter_le _ _
    _ = u.numel := by rw [Finset.card_univ, Shape.card_idx]

/-- THE DEGREE COUNT: with fewer than `2^31` updates, the signed reading of the word count of ones scattered
    into zeros, as an exact float, is the exact float scatter-add of ones into zeros. -/
theorem count_word_eq_count_real (d : ScatterDims s si u) (idx : IVec si w) (hu : u.numel < 2 ^ 31) (i : s.Idx) :
    ((((Host.scatter d IntOp.addi (fun _ => (0#32 : BitVec 32)) idx (fun _ => (1#32 : BitVec 32)) i).toInt : ℝ)) : EReal)
      = Ideal.hostScatterAdd d (fun _ => (0 : EReal)) idx (fun _ => (1 : EReal)) i := by
  rw [scatter_ones_word, toInt_ofNat_of_lt _ (lt_of_le_of_lt (card_landing_le d idx i) hu)]
  unfold Ideal.hostScatterAdd
  rw [Finset.sum_const, zero_add, nsmul_one, Int.cast_natCast, EReal.coe_natCast]

/-- The same for whole vectors, whatever way the constant operands are written: if the word operands are all-zero
    and all-one and the float operands all-zero and all-one, the converted word count is the float count. -/
theorem sitofp_scatter_ones {φ : FTy} (d : ScatterDims s si u) (idx : IVec si w) (hu : u.numel < 2 ^ 31)
    (z : s.Idx → BitVec 32) (o : u.Idx → BitVec 32) (zf : FVec Ideal s φ) (of : FVec Ideal u φ)
    (hz : z = fun _ => 0#32) (ho : o = fun _ => 1#32) (hzf : zf = fun _ => (0 : EReal)) (hof : of = fun _ => (1 : EReal)) :
    sitofp (F := Ideal) φ (Host.scatter d IntOp.addi z idx o) = Host.scatterAdd (F := Ideal) d zf idx of := by
  subst hz ho hzf hof
  funext i
  exact count_word_eq_count_real d idx hu i

end Cert.LibScatterCount

end
-- ==== Proof.Degree.lean ====
/-
  The degrees, counted in words and counted in floats.

  One program counts the edges arriving at each node in 32-bit integers — the word 1 added, per edge, into a vector
  of zero words at the edge's target — and converts the count to a float; the other adds the float 1 into float
  zeros. There are 1114112 edges, fewer than 2^31, so no word count wraps, its signed reading is the count, and the
  conversion of that integer is exact: both are the number of edges whose target is the node.
-/
import proofs.«110312_j3994319585791_2_alg».proof.Proof.Spec
import proofs.«110312_j3994319585791_2_alg».proof.Proof.LibScatterCount

noncomputable section

namespace Cert.Spec

open Idealize.ShloMosaic Cert.ReferenceIdeal
open Cert.ReferenceIdeal.Facts₀

/-- The degrees counted in 32-bit words, then converted. -/
def wordDegree (ei : IVec S2x1048576 32) : FVec Ideal S65536 .f32 :=
  sitofp (F := Ideal) .f32
    (Host.scatter scatter_S65536_S1114112x1_S1114112_n_0_0_1 IntOp.addi
      (broadcastInDim S65536 ![] bcast_S_S65536 (constantI S_ 32 0#32))
      (broadcastInDim S1114112x1 ![0] bcast_S1114112_S1114112x1_0 (dst ei))
      (broadcastInDim S1114112 ![] bcast_S_S1114112 (constantI S_ 32 1#32)))

/-- There are fewer than 2^31 edges. -/
theorem edges_lt : S1114112.numel < 2 ^ 31 := by
  rw [Shape.numel_rank1]
  show (1114112 : Nat) < 2 ^ 31
  norm_num

theorem zero_words : (broadcastInDim S65536 ![] bcast_S_S65536 (constantI S_ 32 0#32) : S65536.Idx → BitVec 32)
    = fun _ => 0#32 := rfl

theorem one_words : (broadcastInDim S1114112 ![] bcast_S_S1114112 (constantI S_ 32 1#32) : S1114112.Idx → BitVec 32)
    = fun _ => 1#32 := rfl

theorem zero_floats : (broadcastInDim S65536 ![] bcast_S_S65536 (constant (F := Ideal) S_ .f32 0x00000000#32))
    = fun _ => (0 : EReal) := by
  funext j; show Ideal.ofBits .f32 0x00000000#32 = 0; exact Ideal.ofBits_zero_f32

theorem one_floats : (broadcastInDim S1114112 ![] bcast_S_S1114112 (constant (F := Ideal) S_ .f32 0x3F800000#32))
    = fun _ => (1 : EReal) := by
  funext j; show Ideal.ofBits .f32 0x3F800000#32 = 1; exact Ideal.ofBits_one_f32

/-- The word count, converted, is the float count. -/
theorem wordDegree_eq (ei : IVec S2x1048576 32) : wordDegree ei = degree ei := by
  have h := Cert.LibScatterCount.sitofp_scatter_ones (φ := .f32) scatter_S65536_S1114112x1_S1114112_n_0_0_1
    (broadcastInDim S1114112x1 ![0] bcast_S1114112_S1114112x1_0 (dst ei)) edges_lt _ _ _ _
    zero_words one_words zero_floats one_floats
  unfold wordDegree degree
  exact h

end Cert.Spec

end
-- ==== Proof.LibTypedRefCasts.lean ====
/-
  A tensor value stored into a buffer and read back is the value.

  A typed reference names a buffer together with the equation "the buffer's type is the value's type". Storing a value
  transports it along that equation and reading transports back, so reading what was stored is the identity — for any
  buffer, any type and any element interpretation, by taking the equation to be reflexivity. Rewriting with this
  removes the transports from the composed result of a line of operations on typed references before anything is
  compared definitionally.
-/
import Idealize.ShloMosaic.Lib.StableHlo

namespace Cert.LibTypedRefCasts

open Idealize.ShloMosaic Idealize.ShloMosaic.StableHlo

variable {sig : RefSig} {Val : EltTy → Type} {T : BufTy}

/-- Reading a value back through the buffer type it was stored at gives the value. -/
theorem ofBuf_toBuf (x : TRef sig T) (v : T.Contents Val) : x.ofBuf (x.toBuf v) = v := by
  obtain ⟨r, h1, h2, h3⟩ := x
  subst h1
  rfl

/-- Storing what was read through the buffer type gives it back. -/
theorem toBuf_ofBuf (x : TRef sig T) (w : x.ref.ty.Contents Val) : x.toBuf (x.ofBuf w) = w := by
  obtain ⟨r, h1, h2, h3⟩ := x
  subst h1
  rfl

end Cert.LibTypedRefCasts
-- ==== Proof.KernelRun.lean ====
/-
  The kernel program's run, read at its result.

  Around the one region the program is host operations: before it, the endpoint lists, the degrees counted in
  32-bit words and converted, and the edge weights; after it, the gather of the source rows of the region's output,
  the scaling, the sum into the target rows and the bias. The region's output array is the product X·W
  (`Blocks.features_eq`), the word count of the degrees is their float count (`Spec.wordDegree_eq`), and the
  change of format after the gather is the identity on exact values: the result is `Spec.result` of the arguments.
-/
import proofs.«110312_j3994319585791_2_alg».proof.Proof.KernelBlocks
import proofs.«110312_j3994319585791_2_alg».proof.Proof.Degree
import proofs.«110312_j3994319585791_2_alg».proof.Proof.LibTypedRefCasts
import Idealize.ShloMosaic.Lib.StableHlo.Run

noncomputable section

namespace Cert.KernelIdeal.KRun

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- A value read or stored through a typed reference whose type is the buffer's own is the value. -/
theorem read_v13 (h1 h2 h3) (w : IVec S65536 1) :
    (TRef.of (T := ⟨S65536, .i1⟩) main_v13 h1 h2 h3).ofBuf (Val := Elt Ideal) w = w := rfl
theorem read_v14 (h1 h2 h3) (w : FVec Ideal S65536 .f32) :
    (TRef.of (T := ⟨S65536, .f32⟩) main_v14 h1 h2 h3).ofBuf (Val := Elt Ideal) w = w := rfl
theorem read_cst_1 (h1 h2 h3) (w : FVec Ideal S_ .f32) :
    (TRef.of (T := ⟨S_, .f32⟩) main_cst_1 h1 h2 h3).ofBuf (Val := Elt Ideal) w = w := rfl
theorem store_v15 (h1 h2 h3) (w : FVec Ideal S65536 .f32) :
    (TRef.of (T := ⟨S65536, .f32⟩) main_v15 h1 h2 h3).toBuf (Val := Elt Ideal) w = w := rfl

/-- When the region is entered the source-endpoint buffer holds the source endpoints. -/
theorem entry_src (c : Dev nD) :
    (V0 m c (Proc.devRef .tc main_v5) : S1114112.Idx → BitVec 32) = Cert.Spec.src (m ((c : Thread nD τ).loc main_arg1)) := by
  dsimp only [V0]
  simp only [hostOps0, hostOps0_1, hostOps0_2, List.flatten_cons, List.flatten_nil, List.append_nil, List.cons_append,
    List.nil_append]
  simp (disch := decide) only [after_cons, after_nil,
    nullary_result', unary_result', binary_result', ternary_result', quaternary_result', reshape_result', nary4_result',
    nary_result', unaryIndexed_result', binaryIndexed_result', nullary_result_ne', unary_result_ne', binary_result_ne',
    ternary_result_ne', quaternary_result_ne', reshape_result_ne', nary_result_ne', unaryIndexed_result_ne',
    binaryIndexed_result_ne', Cert.Spec.join2_fold]
  rfl

/-- The target-endpoint buffer holds the target endpoints. -/
theorem entry_dst (c : Dev nD) :
    (V0 m c (Proc.devRef .tc main_v6) : S1114112.Idx → BitVec 32) = Cert.Spec.dst (m ((c : Thread nD τ).loc main_arg1)) := by
  dsimp only [V0]
  simp only [hostOps0, hostOps0_1, hostOps0_2, List.flatten_cons, List.flatten_nil, List.append_nil, List.cons_append,
    List.nil_append]
  simp (disch := decide) only [after_cons, after_nil,
    nullary_result', unary_result', binary_result', ternary_result', quaternary_result', reshape_result', nary4_result',
    nary_result', unaryIndexed_result', binaryIndexed_result', nullary_result_ne', unary_result_ne', binary_result_ne',
    ternary_result_ne', quaternary_result_ne', reshape_result_ne', nary_result_ne', unaryIndexed_result_ne',
    binaryIndexed_result_ne', Cert.Spec.join2_fold]
  rfl

set_option maxHeartbeats 2000000 in
set_option maxRecDepth 100000 in
/-- The weight buffer holds the edge weights of the word-counted degrees. -/
theorem entry_weight (c : Dev nD) :
    (V0 m c (Proc.devRef .tc main_v30) : S1114112.Idx → EReal)
      = Cert.Spec.weight (Cert.Spec.wordDegree (m ((c : Thread nD τ).loc main_arg1))) (m ((c : Thread nD τ).loc main_arg1)) := by
  dsimp only [V0]
  simp only [hostOps0, hostOps0_1, hostOps0_2, List.flatten_cons, List.flatten_nil, List.append_nil, List.cons_append,
    List.nil_append]
  simp (disch := decide) only [after_cons, after_nil,
    nullary_result', unary_result', binary_result', ternary_result', quaternary_result', reshape_result', nary4_result',
    nary_result', unaryIndexed_result', binaryIndexed_result', nullary_result_ne', unary_result_ne', binary_result_ne',
    ternary_result_ne', quaternary_result_ne', reshape_result_ne', nary_result_ne', unaryIndexed_result_ne',
    binaryIndexed_result_ne', Cert.Spec.join2_fold]
  simp only [Cert.LibTypedRefCasts.ofBuf_toBuf, Cert.LibTypedRefCasts.toBuf_ofBuf, read_v13, read_v14, read_cst_1, store_v15]
  rfl

/-- The two programs' records of the row gather and of the row scatter name the same dimensions. -/
theorem gatherRows_eq : gather_S65536x64_S1114112x1_S1114112x64_1_0_n_n_0_1_164
    = Cert.ReferenceIdeal.gather_S65536x64_S1114112x1_S1114112x64_1_0_n_n_0_1_164 := rfl
theorem scatterRows_eq : scatter_S65536x64_S1114112x1_S1114112x64_1_0_0_1
    = Cert.ReferenceIdeal.scatter_S65536x64_S1114112x1_S1114112x64_1_0_0_1 := rfl

/-- Widening a float format is the identity on exact values. -/
theorem extf_exact {s : Shape} (x : FVec Ideal s .bf16) (h : FTy.bits .bf16 < FTy.bits .f32) :
    extf (F := Ideal) .f32 x h = x := rfl

/-- The bias buffer is as launched. -/
theorem entry_bias (c : Dev nD) :
    V0 m c (Proc.devRef .tc main_arg3) = m ((c : Thread nD τ).loc main_arg3) := V_main_arg3 m c

set_option maxHeartbeats 2000000 in
set_option maxRecDepth 100000 in
/-- The host operations after the region, run from the region's output array and the buffers as the region found
    them, leave the layer of that array and the word-counted degrees in the result buffer. -/
theorem tail_eq (c : Dev nD) :
    Pipeline.afterTail₀ cfgs (dats m) 0 (V0 m) [hostOps1] c main_v48
      = Cert.Spec.layer ((dats m 0 c).arrAt 2 cfg0.N) (Cert.Spec.wordDegree (m ((c : Thread nD τ).loc main_arg1)))
          (m ((c : Thread nD τ).loc main_arg1)) (m ((c : Thread nD τ).loc main_arg3)) := by
  unfold Pipeline.afterTail₀
  generalize hWv : Pipeline.withArrays _ c (V0 m c) _ = Wv
  have h31 : Wv (Proc.devRef .tc main_v31) = (dats m 0 c).arrAt 2 cfg0.N := by
    rw [← hWv]; exact Pipeline.withArrays_arr spec0 launch0.win.arr_inj c _ _ 2
  have h5 : Wv (Proc.devRef .tc main_v5) = V0 m c (Proc.devRef .tc main_v5) := by
    rw [← hWv]; exact Pipeline.withArrays_of_ne spec0 c _ _ main_v5 (by decide)
  have h6 : Wv (Proc.devRef .tc main_v6) = V0 m c (Proc.devRef .tc main_v6) := by
    rw [← hWv]; exact Pipeline.withArrays_of_ne spec0 c _ _ main_v6 (by decide)
  have h30 : Wv (Proc.devRef .tc main_v30) = V0 m c (Proc.devRef .tc main_v30) := by
    rw [← hWv]; exact Pipeline.withArrays_of_ne spec0 c _ _ main_v30 (by decide)
  have h3 : Wv (Proc.devRef .tc main_arg3) = V0 m c (Proc.devRef .tc main_arg3) := by
    rw [← hWv]; exact Pipeline.withArrays_of_ne spec0 c _ _ main_arg3 (by decide)
  show StableHlo.after hostOps1 Wv (Proc.devRef .tc main_v48) = _
  simp (disch := decide) only [hostOps1, after_cons, after_nil,
    nullary_result', unary_result', binary_result', ternary_result', quaternary_result', reshape_result', nary4_result',
    nary_result', unaryIndexed_result', binaryIndexed_result', nullary_result_ne', unary_result_ne', binary_result_ne',
    ternary_result_ne', quaternary_result_ne', reshape_result_ne', nary_result_ne', unaryIndexed_result_ne',
    binaryIndexed_result_ne']
  rw [h31, h5, h6, h30, h3, entry_src, entry_dst, entry_weight, entry_bias, gatherRows_eq, scatterRows_eq, extf_exact]
  rfl

/-- Every weakly fair execution of the kernel program terminates with its result at `Spec.result` of the
    arguments, the arguments unchanged. -/
theorem run : θ_run defs (onTc (τ := τ) (main (F := Ideal))) ⟨m, fun _ => 0, ρ⟩ fun r => ∀ c : Dev nD,
      r.2.mem ((c : Thread nD τ).loc main_v48)
          = Cert.Spec.result (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v48 (Pipeline.mem_restRefs_of main_v48 (by decide) (by decide))).trans
        ((tail_eq m c).trans (by rw [Cert.KernelIdeal.Blocks.features_eq, Cert.Spec.wordDegree_eq]; rfl)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KRun

end
-- ==== Proof.RefRun.lean ====
/-
  The reference's run: @main is a straight line of sixty host operations, so every weakly fair execution of it
  terminates with each buffer at the operations' composed function of the arguments. Read at the result buffer that
  function is `Spec.result`: the degrees counted as a float sum of ones, the features as one product X·W, then the
  layer.
-/
import proofs.«110312_j3994319585791_2_alg».proof.Proof.Spec
import proofs.«110312_j3994319585791_2_alg».proof.Proof.LibTypedRefCasts
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 60 operations, in order (a called function's operations stand in its call's place, spelt `TRef.…`). -/
abbrev ops : List (HloOp τ sig (Elt F)) :=
  [ unary main_arg1 main_v0 ((extractStridedSlice S1x1048576 ![0, 0] · slices_S2x1048576_S1x1048576_0_0) : (⟨S2x1048576, .i32⟩ : BufTy).Contents (Elt F) → (⟨S1x1048576, .i32⟩ : BufTy).Contents (Elt F)),
    reshape main_v0 main_v1 rfl shapeCasts_S1x1048576_S1048576,
    unary main_arg1 main_v2 ((extractStridedSlice S1x1048576 ![1, 0] · slices_S2x1048576_S1x1048576_1_0) : (⟨S2x1048576, .i32⟩ : BufTy).Contents (Elt F) → (⟨S1x1048576, .i32⟩ : BufTy).Contents (Elt F)),
    reshape main_v2 main_v3 rfl shapeCasts_S1x1048576_S1048576,
    nullary main_v4 (iotaInDim S65536 32 0),
    binary main_v1 main_v4 main_v5 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    binary main_v3 main_v4 main_v6 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    nullary main_cst (constant S_ .f32 0x3F800000#32),
    unary main_cst main_v7 (broadcastInDim S1114112 ![] bcast_S_S1114112 : (⟨S_, .f32⟩ : BufTy).Contents (Elt F) → (⟨S1114112, .f32⟩ : BufTy).Contents (Elt F)),
    nullary main_cst_0 (constant S_ .f32 0x00000000#32),
    unary main_cst_0 main_v8 (broadcastInDim S65536 ![] bcast_S_S65536 : (⟨S_, .f32⟩ : BufTy).Contents (Elt F) → (⟨S65536, .f32⟩ : BufTy).Contents (Elt F)),
    unary main_v6 main_v9 (broadcastInDim S1114112x1 ![0] bcast_S1114112_S1114112x1_0 : (⟨S1114112, .i32⟩ : BufTy).Contents (Elt F) → (⟨S1114112x1, .i32⟩ : BufTy).Contents (Elt F)),
    ternary main_v8 main_v9 main_v7 main_v10 ((fun x i u => Host.scatterAdd scatter_S65536_S1114112x1_S1114112_n_0_0_1 x i u) : (⟨S65536, .f32⟩ : BufTy).Contents (Elt F) → (⟨S1114112x1, .i32⟩ : BufTy).Contents (Elt F) → (⟨S1114112, .f32⟩ : BufTy).Contents (Elt F) → (⟨S65536, .f32⟩ : BufTy).Contents (Elt F)),
    nullary main_cst_1 (constant S_ .f32 0x00000000#32),
    unary main_cst_1 main_v11 (broadcastInDim S65536 ![] bcast_S_S65536 : (⟨S_, .f32⟩ : BufTy).Contents (Elt F) → (⟨S65536, .f32⟩ : BufTy).Contents (Elt F)),
    binary main_v10 main_v11 main_v12 (cmpf .ogt : (⟨S65536, .f32⟩ : BufTy).Contents (Elt F) → (⟨S65536, .f32⟩ : BufTy).Contents (Elt F) → (⟨S65536, .i1⟩ : BufTy).Contents (Elt F)),
    unary main_v10 main_v13 (Host.rsqrt : (⟨S65536, .f32⟩ : BufTy).Contents (Elt F) → (⟨S65536, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S65536, .f32⟩) main_call0_v1) (broadcastInDim S65536 ![] bcast_S_S65536),
    TRef.ternary (TRef.of (T := ⟨S65536, .i1⟩) main_v12) (TRef.of (T := ⟨S65536, .f32⟩) main_v13) (TRef.of (T := ⟨S65536, .f32⟩) main_call0_v1) (TRef.of (T := ⟨S65536, .f32⟩) main_v14) select,
    nullary main_c (constantI S_ 32 0#32),
    unary main_c main_v15 (broadcastInDim S1114112 ![] bcast_S_S1114112 : (⟨S_, .i32⟩ : BufTy).Contents (Elt F) → (⟨S1114112, .i32⟩ : BufTy).Contents (Elt F)),
    binary main_v5 main_v15 main_v16 (cmpi .slt : (⟨S1114112, .i32⟩ : BufTy).Contents (Elt F) → (⟨S1114112, .i32⟩ : BufTy).Contents (Elt F) → (⟨S1114112, .i1⟩ : BufTy).Contents (Elt F)),
    nullary main_c_3 (constantI S_ 32 65536#32),
    unary main_c_3 main_v17 (broadcastInDim S1114112 ![] bcast_S_S1114112 : (⟨S_, .i32⟩ : BufTy).Contents (Elt F) → (⟨S1114112, .i32⟩ : BufTy).Contents (Elt F)),
    binary main_v5 main_v17 main_v18 (addi : (⟨S1114112, .i32⟩ : BufTy).Contents (Elt F) → (⟨S1114112, .i32⟩ : BufTy).Contents (Elt F) → (⟨S1114112, .i32⟩ : BufTy).Contents (Elt F)),
    ternary main_v16 main_v18 main_v5 main_v19 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v19 main_v20 (broadcastInDim S1114112x1 ![0] bcast_S1114112_S1114112x1_0 : (⟨S1114112, .i32⟩ : BufTy).Contents (Elt F) → (⟨S1114112x1, .i32⟩ : BufTy).Contents (Elt F)),
    binary main_v14 main_v20 main_v21 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    nullary main_c_4 (constantI S_ 32 0#32),
    unary main_c_4 main_v22 (broadcastInDim S1114112 ![] bcast_S_S1114112 : (⟨S_, .i32⟩ : BufTy).Contents (Elt F) → (⟨S1114112, .i32⟩ : BufTy).Contents (Elt F)),
    binary main_v6 main_v22 main_v23 (cmpi .slt : (⟨S1114112, .i32⟩ : BufTy).Contents (Elt F) → (⟨S1114112, .i32⟩ : BufTy).Contents (Elt F) → (⟨S1114112, .i1⟩ : BufTy).Contents (Elt F)),
    nullary main_c_5 (constantI S_ 32 65536#32),
    unary main_c_5 main_v24 (broadcastInDim S1114112 ![] bcast_S_S1114112 : (⟨S_, .i32⟩ : BufTy).Contents (Elt F) → (⟨S1114112, .i32⟩ : BufTy).Contents (Elt F)),
    binary main_v6 main_v24 main_v25 (addi : (⟨S1114112, .i32⟩ : BufTy).Contents (Elt F) → (⟨S1114112, .i32⟩ : BufTy).Contents (Elt F) → (⟨S1114112, .i32⟩ : BufTy).Contents (Elt F)),
    ternary main_v23 main_v25 main_v6 main_v26 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v26 main_v27 (broadcastInDim S1114112x1 ![0] bcast_S1114112_S1114112x1_0 : (⟨S1114112, .i32⟩ : BufTy).Contents (Elt F) → (⟨S1114112x1, .i32⟩ : BufTy).Contents (Elt F)),
    binary main_v14 main_v27 main_v28 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v21 main_v28 main_v29 (mulf : (⟨S1114112, .f32⟩ : BufTy).Contents (Elt F) → (⟨S1114112, .f32⟩ : BufTy).Contents (Elt F) → (⟨S1114112, .f32⟩ : BufTy).Contents (Elt F)),
    binary main_arg0 main_arg2 main_v30 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    nullary main_c_6 (constantI S_ 32 0#32),
    unary main_c_6 main_v31 (broadcastInDim S1114112 ![] bcast_S_S1114112 : (⟨S_, .i32⟩ : BufTy).Contents (Elt F) → (⟨S1114112, .i32⟩ : BufTy).Contents (Elt F)),
    binary main_v5 main_v31 main_v32 (cmpi .slt : (⟨S1114112, .i32⟩ : BufTy).Contents (Elt F) → (⟨S1114112, .i32⟩ : BufTy).Contents (Elt F) → (⟨S1114112, .i1⟩ : BufTy).Contents (Elt F)),
    nullary main_c_7 (constantI S_ 32 65536#32),
    unary main_c_7 main_v33 (broadcastInDim S1114112 ![] bcast_S_S1114112 : (⟨S_, .i32⟩ : BufTy).Contents (Elt F) → (⟨S1114112, .i32⟩ : BufTy).Contents (Elt F)),
    binary main_v5 main_v33 main_v34 (addi : (⟨S1114112, .i32⟩ : BufTy).Contents (Elt F) → (⟨S1114112, .i32⟩ : BufTy).Contents (Elt F) → (⟨S1114112, .i32⟩ : BufTy).Contents (Elt F)),
    ternary main_v32 main_v34 main_v5 main_v35 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v35 main_v36 (broadcastInDim S1114112x1 ![0] bcast_S1114112_S1114112x1_0 : (⟨S1114112, .i32⟩ : BufTy).Contents (Elt F) → (⟨S1114112x1, .i32⟩ : BufTy).Contents (Elt F)),
    binary main_v30 main_v36 main_v37 ((fun x i => Host.gather gather_S65536x64_S1114112x1_S1114112x64_1_0_n_n_0_1_164 x i) : (⟨S65536x64, .f32⟩ : BufTy).Contents (Elt F) → (⟨S1114112x1, .i32⟩ : BufTy).Contents (Elt F) → (⟨S1114112x64, .f32⟩ : BufTy).Contents (Elt F)),
    unary main_v29 main_v38 (broadcastInDim S1114112x1 ![0] bcast_S1114112_S1114112x1_0 : (⟨S1114112, .f32⟩ : BufTy).Contents (Elt F) → (⟨S1114112x1, .f32⟩ : BufTy).Contents (Elt F)),
    unary main_v38 main_v39 (broadcastInDim S1114112x64 ![0, 1] bcast_S1114112x1_S1114112x64_0_1 : (⟨S1114112x1, .f32⟩ : BufTy).Contents (Elt F) → (⟨S1114112x64, .f32⟩ : BufTy).Contents (Elt F)),
    binary main_v37 main_v39 main_v40 (mulf : (⟨S1114112x64, .f32⟩ : BufTy).Contents (Elt F) → (⟨S1114112x64, .f32⟩ : BufTy).Contents (Elt F) → (⟨S1114112x64, .f32⟩ : BufTy).Contents (Elt F)),
    nullary main_cst_8 (constant S_ .f32 0x00000000#32),
    unary main_cst_8 main_v41 (broadcastInDim S65536x64 ![] bcast_S_S65536x64 : (⟨S_, .f32⟩ : BufTy).Contents (Elt F) → (⟨S65536x64, .f32⟩ : BufTy).Contents (Elt F)),
    unary main_v6 main_v42 (broadcastInDim S1114112x1 ![0] bcast_S1114112_S1114112x1_0 : (⟨S1114112, .i32⟩ : BufTy).Contents (Elt F) → (⟨S1114112x1, .i32⟩ : BufTy).Contents (Elt F)),
    ternary main_v41 main_v42 main_v40 main_v43 ((fun x i u => Host.scatterAdd scatter_S65536x64_S1114112x1_S1114112x64_1_0_0_1 x i u) : (⟨S65536x64, .f32⟩ : BufTy).Contents (Elt F) → (⟨S1114112x1, .i32⟩ : BufTy).Contents (Elt F) → (⟨S1114112x64, .f32⟩ : BufTy).Contents (Elt F) → (⟨S65536x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S65536x64 ![0, 1] bcast_S1x64_S65536x64_0_1 : (⟨S1x64, .f32⟩ : BufTy).Contents (Elt F) → (⟨S65536x64, .f32⟩ : BufTy).Contents (Elt F)),
    binary main_v43 main_v45 main_v46 (addf : (⟨S65536x64, .f32⟩ : BufTy).Contents (Elt F) → (⟨S65536x64, .f32⟩ : BufTy).Contents (Elt F) → (⟨S65536x64, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

/-- A value read or stored through a typed reference whose type is the buffer's own is the value. -/
theorem read_v12 (h1 h2 h3) (w : main_v12.ty.Contents (Elt F)) :
    (TRef.of (T := ⟨S65536, .i1⟩) main_v12 h1 h2 h3).ofBuf w = w := rfl
theorem read_v13 (h1 h2 h3) (w : FVec Ideal S65536 .f32) :
    (TRef.of (T := ⟨S65536, .f32⟩) main_v13 h1 h2 h3).ofBuf (Val := Elt Ideal) w = w := rfl
theorem read_cst_2 (h1 h2 h3) (w : FVec Ideal S_ .f32) :
    (TRef.of (T := ⟨S_, .f32⟩) main_cst_2 h1 h2 h3).ofBuf (Val := Elt Ideal) w = w := rfl
theorem store_v14 (h1 h2 h3) (w : (⟨S65536, .f32⟩ : BufTy).Contents (Elt F)) :
    (TRef.of (T := ⟨S65536, .f32⟩) main_v14 h1 h2 h3).toBuf w = w := rfl

set_option maxRecDepth 100000 in
set_option maxHeartbeats 2000000 in
/-- On every device, from any memory with zero counters: every weakly fair execution of the reference terminates with
    its result at `Spec.result` of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46)
          = Cert.Spec.result (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v46).trans (by
      simp (disch := decide) only [after_cons, after_nil,
        nullary_result', unary_result', binary_result', ternary_result', quaternary_result', reshape_result', nary4_result',
        nary_result', unaryIndexed_result', binaryIndexed_result', nullary_result_ne', unary_result_ne', binary_result_ne',
        ternary_result_ne', quaternary_result_ne', reshape_result_ne', nary_result_ne', unaryIndexed_result_ne',
        binaryIndexed_result_ne', Cert.Spec.join2_fold]
      simp only [Cert.LibTypedRefCasts.ofBuf_toBuf, Cert.LibTypedRefCasts.toBuf_ofBuf, read_v12, read_v13, read_cst_2,
        store_v14]
      rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.lean ====
/-
  The kernel program and its reference compute one graph-convolution layer:
  out(i, ·) = b + Σ over edges e with target i of d(src e) · d(dst e) · (X·W)(src e, ·), d = deg^(-1/2),
  the graph being the given edges plus one self-loop per node.

  The two programs differ in two places only. The degrees: one counts the edges arriving at a node in 32-bit words
  and converts, the other sums float ones; with 1114112 < 2^31 edges the word count does not wrap and both are the
  count (Proof/LibScatterCount.lean, Proof/Degree.lean). The transformed features X·W: one computes the product in a
  grid of eight blocks of 8192 rows, with changes of float format that are the identity on exact values, the other as
  one product; a row of the product depends on the same row of X alone, and the blocks tile the rows
  (Proof/KernelBlocks.lean). Everything else — the endpoint lists, the weights, the gather, the sum into the target
  rows, the bias — is one function of the features and the degrees (Proof/Spec.lean), applied by both
  (Proof/KernelRun.lean, Proof/RefRun.lean). No finiteness of the inputs is used.
-/
import proofs.«110312_j3994319585791_2_alg».proof.Defs
import proofs.«110312_j3994319585791_2_alg».proof.Proof.Gen.Kernel
import proofs.«110312_j3994319585791_2_alg».proof.Proof.Gen.Kernel.Skeleton
import proofs.«110312_j3994319585791_2_alg».proof.Proof.Gen.Kernel.Launch
import proofs.«110312_j3994319585791_2_alg».proof.Proof.Gen.Kernel.Points
import proofs.«110312_j3994319585791_2_alg».proof.Proof.Gen.Kernel.Frame
import proofs.«110312_j3994319585791_2_alg».proof.Proof.Gen.KernelIdeal
import proofs.«110312_j3994319585791_2_alg».proof.Proof.Gen.KernelIdeal.Skeleton
import proofs.«110312_j3994319585791_2_alg».proof.Proof.Gen.KernelIdeal.Launch
import proofs.«110312_j3994319585791_2_alg».proof.Proof.Gen.KernelIdeal.Points
import proofs.«110312_j3994319585791_2_alg».proof.Proof.Gen.KernelIdeal.Frame
import proofs.«110312_j3994319585791_2_alg».proof.Proof.Gen.ReferenceIdeal
import proofs.«110312_j3994319585791_2_alg».proof.Proof.Gen.Pre_finite_inputs
import proofs.«110312_j3994319585791_2_alg».proof.Proof.KernelRun
import proofs.«110312_j3994319585791_2_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The kernel program at exact values runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- Nothing was rewritten between the two kernel programs. -/
theorem preserves : Cert.preserves_Kernel_KernelIdeal := trivial

/-- Both programs end with the layer `Spec.result` of arguments that agree. -/
theorem algebraic : Cert.algebraic_KernelIdeal_ReferenceIdeal := by
  intro m ρ m' ρ' _ hagree
  refine ⟨fun c => Cert.Spec.result (m ((c.tc : Thread _ _).loc Cert.KernelIdeal.main_arg0))
      (m ((c.tc : Thread _ _).loc Cert.KernelIdeal.main_arg1)) (m ((c.tc : Thread _ _).loc Cert.KernelIdeal.main_arg2))
      (m ((c.tc : Thread _ _).loc Cert.KernelIdeal.main_arg3)), Cert.KernelIdeal.KRun.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
